-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v40)) (v5 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x64x64 : Shape := ⟨4, ![32, 1, 64, 64]⟩
abbrev S32x1x1024x1024 : Shape := ⟨4, ![32, 1, 1024, 1024]⟩
abbrev S32 : Shape := ⟨1, ![32]⟩
abbrev S_ : Shape := ⟨0, ![]⟩

class Facts : Prop where
  bcast_S_S32x1x64x64 : S_.BroadcastsInDim S32x1x64x64 (![] : Fin 0 → Fin S32x1x64x64.rank)
  reducesTo_S32x1x64x64_S_d0_1_2_3 : S32x1x64x64.ReducesTo [0, 1, 2, 3] S_
  h_S_ : 0 < S_.numel
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_

variable [Facts]

def fn {F : FTy → Type} [FloatOps F] (main_arg0 : FVec F S32x1x64x64 .f32) (main_arg1 : FVec F S32x1x1024x1024 .f32) (main_arg2 : FVec F S32x1x1024x1024 .f32) (main_arg3 : IVec S32 32) : IVec S_ 1 :=
  let main_v0 : FVec F S32x1x64x64 .f32 := Host.absf main_arg0
  let main_cst : FVec F S_ .f32 := constant S_ .f32 0x7F800000#32
  let main_v1 : FVec F S32x1x64x64 .f32 := broadcastInDim S32x1x64x64 ![] bcast_S_S32x1x64x64 main_cst
  let main_v2 : IVec S32x1x64x64 1 := cmpf .olt main_v0 main_v1
  let main_c : IVec S_ 1 := constantI S_ 1 1#1
  let main_v3 : IVec S_ 1 := (fun x v => Host.reduce IntOp.andi x v reducesTo_S32x1x64x64_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  let main_v9 : FVec F S32x1x1024x1024 .f32 := Host.absf main_arg2
  let main_cst_2 : FVec F S_ .f32 := constant S_ .f32 0x7F800000#32
  let main_v10 : FVec F S32x1x1024x1024 .f32 := broadcastInDim S32x1x1024x1024 ![] bcast_S_S32x1x1024x1024 main_cst_2
  let main_v11 : IVec S32x1x1024x1024 1 := cmpf .olt main_v9 main_v10
  let main_c_3 : IVec S_ 1 := constantI S_ 1 1#1
  let main_v12 : IVec S_ 1 := (fun x v => Host.reduce IntOp.andi x v reducesTo_S32x1x1024x1024_S_d0_1_2_3 h_S_) main_v11 main_c_3
  let main_v13 : IVec S_ 1 := andi main_v8 main_v12
  main_v13
-- ==== Kernel.lean ====
abbrev S32x1x64x64 : Shape := ⟨4, ![32, 1, 64, 64]⟩
abbrev S32x1x1024x1024 : Shape := ⟨4, ![32, 1, 1024, 1024]⟩
abbrev S32 : Shape := ⟨1, ![32]⟩
abbrev S1x1x128x1024 : Shape := ⟨4, ![1, 1, 128, 1024]⟩
abbrev S1x1x8x64 : Shape := ⟨4, ![1, 1, 8, 64]⟩
abbrev S128x1024 : Shape := ⟨2, ![128, 1024]⟩
abbrev S128x64x16 : Shape := ⟨3, ![128, 64, 16]⟩
abbrev S128x64 : Shape := ⟨2, ![128, 64]⟩
abbrev S8x16x64 : Shape := ⟨3, ![8, 16, 64]⟩
abbrev S8x64 : Shape := ⟨2, ![8, 64]⟩
abbrev S_ : Shape := ⟨0, ![]⟩
abbrev S32x64x64 : Shape := ⟨3, ![32, 64, 64]⟩
abbrev S131072 : Shape := ⟨1, ![131072]⟩
abbrev S32x64x64x1 : Shape := ⟨4, ![32, 64, 64, 1]⟩
abbrev S131072x1 : Shape := ⟨2, ![131072, 1]⟩
abbrev S32x4096x1 : Shape := ⟨3, ![32, 4096, 1]⟩
abbrev S32x4096 : Shape := ⟨2, ![32, 4096]⟩
abbrev S32x1 : Shape := ⟨2, ![32, 1]⟩

abbrev nBuf : Space → Nat
  | .hbm => 55
  | .vmem => 8
  | .smem => 0
  | _ => 0

abbrev bufTy : (tb : Table) → Fin (tcTables nBuf tb) → BufTy
  | .hbm, ⟨0, _⟩ => ⟨S32x1x64x64, .f32⟩
  | .hbm, ⟨1, _⟩ => ⟨S32x1x1024x1024, .f32⟩
  | .hbm, ⟨2, _⟩ => ⟨S32x1x1024x1024, .f32⟩
  | .hbm, ⟨3, _⟩ => ⟨S32, .i32⟩
  | .hbm, ⟨4, _⟩ => ⟨S32x1x64x64, .f32⟩
  | .hbm, ⟨5, _⟩ => ⟨S32x1x64x64, .f32⟩
  | .hbm, ⟨6, _⟩ => ⟨S_, .f32⟩
  | .hbm, ⟨7, _⟩ => ⟨S32x1x64x64, .f32⟩
  | .hbm, ⟨8, _⟩ => ⟨S32x1x64x64, .i1⟩
  | .hbm, ⟨9, _⟩ => ⟨S_, .f32⟩
  | .hbm, ⟨10, _⟩ => ⟨S32x1x64x64, .f32⟩
  | .hbm, ⟨11, _⟩ => ⟨S32x1x64x64, .i1⟩
  | .hbm, ⟨12, _⟩ => ⟨S32x1x64x64, .i1⟩
  | .hbm, ⟨13, _⟩ => ⟨S32x1x64x64, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S32x1x64x64, .i1⟩
  | .hbm, ⟨19, _⟩ => ⟨S32x64x64, .i1⟩
  | .hbm, ⟨20, _⟩ => ⟨S131072, .i1⟩
  | .hbm, ⟨21, _⟩ => ⟨S131072, .f32⟩
  | .hbm, ⟨22, _⟩ => ⟨S32x64x64x1, .f32⟩
  | .hbm, ⟨23, _⟩ => ⟨S131072x1, .f32⟩
  | .hbm, ⟨24, _⟩ => ⟨S131072x1, .f32⟩
  | .hbm, ⟨25, _⟩ => ⟨S131072x1, .f32⟩
  | .hbm, ⟨26, _⟩ => ⟨S_, .f32⟩
  | .hbm, ⟨27, _⟩ => ⟨S131072x1, .f32⟩
  | .hbm, ⟨28, _⟩ => ⟨S131072x1, .f32⟩
  | .hbm, ⟨29, _⟩ => ⟨S_, .f32⟩
  | .hbm, ⟨30, _⟩ => ⟨S131072x1, .f32⟩
  | .hbm, ⟨31, _⟩ => ⟨S131072x1, .f32⟩
  | .hbm, ⟨32, _⟩ => ⟨S32x4096x1, .f32⟩
  | .hbm, ⟨33, _⟩ => ⟨S32x4096, .f32⟩
  | .hbm, ⟨34, _⟩ => ⟨S_, .f32⟩
  | .hbm, ⟨35, _⟩ => ⟨S32, .f32⟩
  | .hbm, ⟨36, _⟩ => ⟨S32x4096x1, .f32⟩
  | .hbm, ⟨37, _⟩ => ⟨S32x4096x1, .f32⟩
  | .hbm, ⟨38, _⟩ => ⟨S_, .f32⟩
  | .hbm, ⟨39, _⟩ => ⟨S32x1, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32x1, .f32⟩
  | .hbm, ⟨44, _⟩ => ⟨S32x1, .f32⟩
  | .hbm, ⟨45, _⟩ => ⟨S32, .f32⟩
  | .hbm, ⟨46, _⟩ => ⟨S32x1, .f32⟩
  | .hbm, ⟨47, _⟩ => ⟨S131072x1, .f32⟩
  | .hbm, ⟨48, _⟩ => ⟨S131072x1, .f32⟩
  | .hbm, ⟨49, _⟩ => ⟨S131072x1, .f32⟩
  | .hbm, ⟨50, _⟩ => ⟨S131072x1, .f32⟩
  | .hbm, ⟨51, _⟩ => ⟨S32x4096, .f32⟩
  | .hbm, ⟨52, _⟩ => ⟨S131072, .f32⟩
  | .hbm, ⟨53, _⟩ => ⟨S131072, .f32⟩
  | .hbm, ⟨54, _⟩ => ⟨S131072x1, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x8x64, .f32⟩
  | .local _ .vmem, ⟨5, _⟩ => ⟨S1x1x8x64, .f32⟩
  | .local _ .vmem, ⟨6, _⟩ => ⟨S1x1x8x64, .f32⟩
  | .local _ .vmem, ⟨7, _⟩ => ⟨S1x1x8x64, .f32⟩
  | _, _ => ⟨S32x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S128x1024 : S1x1x128x1024.ShapeCasts S128x1024
  shapeCasts_S128x1024_S128x64x16 : S128x1024.ShapeCasts S128x64x16
  reduces_S128x64x16_S128x64 : S128x64x16.Reduces [2] S128x64
  shapeCasts_S128x64_S8x16x64 : S128x64.ShapeCasts S8x16x64
  reduces_S8x16x64_S8x64 : S8x16x64.Reduces [1] S8x64
  natLt_1_32 : 1 < 32
  inb_S1x1x8x64_S1x1x8x64_0_0_0_0 : ∀ a, (![0, 0, 0, 0] : Fin 4 → Nat) a + S1x1x8x64.size a ≤ S1x1x8x64.size a
  h_S1x1x8x64 : 0 < S1x1x8x64.numel
  shapeCasts_S1x1x8x64_S8x64 : S1x1x8x64.ShapeCasts S8x64
  shapeCasts_S8x64_S1x1x8x64 : S8x64.ShapeCasts S1x1x8x64
  bcast_S_S32x1x64x64 : S_.BroadcastsInDim S32x1x64x64 (![] : Fin 0 → Fin S32x1x64x64.rank)
  reducesTo_S32x1x64x64_S_d0_1_2_3 : S32x1x64x64.ReducesTo [0, 1, 2, 3] S_
  h_S_ : 0 < S_.numel
  shapeCasts_S32x1x64x64_S32x64x64 : S32x1x64x64.ShapeCasts S32x64x64
  shapeCasts_S32x64x64_S131072 : S32x64x64.ShapeCasts S131072
  transposes_S32x1x64x64_S32x64x64x1_0_2_3_1 : S32x1x64x64.Transposes [0, 2, 3, 1] S32x64x64x1
  shapeCasts_S32x64x64x1_S131072x1 : S32x64x64x1.ShapeCasts S131072x1
  bcast_S_S131072x1 : S_.BroadcastsInDim S131072x1 (![] : Fin 0 → Fin S131072x1.rank)
  shapeCasts_S131072x1_S32x4096x1 : S131072x1.ShapeCasts S32x4096x1
  shapeCasts_S131072_S32x4096 : S131072.ShapeCasts S32x4096
  reducesTo_S32x4096_S32_d1 : S32x4096.ReducesTo [1] S32
  bcast_S32x4096_S32x4096x1_0_1 : S32x4096.BroadcastsInDim S32x4096x1 (![0, 1] : Fin 2 → Fin S32x4096x1.rank)
  reducesTo_S32x4096x1_S32x1_d1 : S32x4096x1.ReducesTo [1] S32x1
  bcast_S_S32 : S_.BroadcastsInDim S32 (![] : Fin 0 → Fin S32.rank)
  bcast_S32_S32x1_0 : S32.BroadcastsInDim S32x1 (![0] : Fin 1 → Fin S32x1.rank)
  bcast_S131072_S131072x1_0 : S131072.BroadcastsInDim S131072x1 (![0] : Fin 1 → Fin S131072x1.rank)
  bcast_S32_S32x4096_0 : S32.BroadcastsInDim S32x4096 (![0] : Fin 1 → Fin S32x4096.rank)
  shapeCasts_S32x4096_S131072 : S32x4096.ShapeCasts S131072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x1024.size a ≤ S32x1x1024x1024.size a
  hwx0_0 : ∀ i : grid0.Coords, EltTy.bits .f32 = 32 ∨ (Rect.block (s := S32x1x1024x1024) S1x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1024.size a ≤ S32x1x1024x1024.size a
  hwx0_1 : ∀ i : grid0.Coords, EltTy.bits .f32 = 32 ∨ (Rect.block (s := S32x1x1024x1024) S1x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x64.size a ≤ S32x1x64x64.size a
  hwx0_2 : ∀ i : grid0.Coords, EltTy.bits .f32 = 32 ∨ (Rect.block (s := S32x1x64x64) S1x1x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x64.size a ≤ S32x1x64x64.size a
  hwx0_3 : ∀ i : grid0.Coords, EltTy.bits .f32 = 32 ∨ (Rect.block (s := S32x1x64x64) S1x1x8x64.size (cc0_transform_3 i) (hinb0_3 i)).WholeWords (EltTy.packing .f32)

variable [Facts₀]

abbrev win0_0 : Pipeline.Window sig grid0 :=
  Pipeline.Window.ofSpec (Memref.whole main_arg1) S1x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x64x64 : Shape := ⟨4, ![32, 1, 64, 64]⟩
abbrev S32x1x1024x1024 : Shape := ⟨4, ![32, 1, 1024, 1024]⟩
abbrev S32 : Shape := ⟨1, ![32]⟩
abbrev S32x1x64x16x64x16 : Shape := ⟨6, ![32, 1, 64, 16, 64, 16]⟩
abbrev S_ : Shape := ⟨0, ![]⟩
abbrev S32x64x64 : Shape := ⟨3, ![32, 64, 64]⟩
abbrev S131072 : Shape := ⟨1, ![131072]⟩
abbrev S32x64x64x1 : Shape := ⟨4, ![32, 64, 64, 1]⟩
abbrev S131072x1 : Shape := ⟨2, ![131072, 1]⟩
abbrev S32x4096x1 : Shape := ⟨3, ![32, 4096, 1]⟩
abbrev S32x4096 : Shape := ⟨2, ![32, 4096]⟩
abbrev S32x1 : Shape := ⟨2, ![32, 1]⟩

abbrev nBuf : Space → Nat
  | .hbm => 65
  | .vmem => 0
  | .smem => 0
  | _ => 0

abbrev bufTy : (tb : Table) → Fin (tcTables nBuf tb) → BufTy
  | .hbm, ⟨0, _⟩ => ⟨S32x1x64x64, .f32⟩
  | .hbm, ⟨1, _⟩ => ⟨S32x1x1024x1024, .f32⟩
  | .hbm, ⟨2, _⟩ => ⟨S32x1x1024x1024, .f32⟩
  | .hbm, ⟨3, _⟩ => ⟨S32, .i32⟩
  | .hbm, ⟨4, _⟩ => ⟨S32x1x64x16x64x16, .f32⟩
  | .hbm, ⟨5, _⟩ => ⟨S_, .f32⟩
  | .hbm, ⟨6, _⟩ => ⟨S32x1x64x64, .f32⟩
  | .hbm, ⟨7, _⟩ => ⟨S_, .f32⟩
  | .hbm, ⟨8, _⟩ => ⟨S32x1x64x64, .f32⟩
  | .hbm, ⟨9, _⟩ => ⟨S32x1x64x64, .f32⟩
  | .hbm, ⟨10, _⟩ => ⟨S_, .f32⟩
  | .hbm, ⟨11, _⟩ => ⟨S32x1x64x64, .f32⟩
  | .hbm, ⟨12, _⟩ => ⟨S32x1x64x64, .i1⟩
  | .hbm, ⟨13, _⟩ => ⟨S32x1x64x16x64x16, .f32⟩
  | .hbm, ⟨14, _⟩ => ⟨S_, .f32⟩
  | .hbm, ⟨15, _⟩ => ⟨S32x1x64x64, .f32⟩
  | .hbm, ⟨16, _⟩ => ⟨S_, .f32⟩
  | .hbm, ⟨17, _⟩ => ⟨S32x1x64x64, .f32⟩
  | .hbm, ⟨18, _⟩ => ⟨S32x1x64x64, .f32⟩
  | .hbm, ⟨19, _⟩ => ⟨S_, .f32⟩
  | .hbm, ⟨20, _⟩ => ⟨S32x1x64x64, .f32⟩
  | .hbm, ⟨21, _⟩ => ⟨S32x1x64x64, .i1⟩
  | .hbm, ⟨22, _⟩ => ⟨S32x1x64x64, .i1⟩
  | .hbm, ⟨23, _⟩ => ⟨S32x1x64x64, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S32x1x64x64, .i1⟩
  | .hbm, ⟨29, _⟩ => ⟨S32x64x64, .i1⟩
  | .hbm, ⟨30, _⟩ => ⟨S131072, .i1⟩
  | .hbm, ⟨31, _⟩ => ⟨S131072, .f32⟩
  | .hbm, ⟨32, _⟩ => ⟨S32x64x64x1, .f32⟩
  | .hbm, ⟨33, _⟩ => ⟨S131072x1, .f32⟩
  | .hbm, ⟨34, _⟩ => ⟨S131072x1, .f32⟩
  | .hbm, ⟨35, _⟩ => ⟨S131072x1, .f32⟩
  | .hbm, ⟨36, _⟩ => ⟨S_, .f32⟩
  | .hbm, ⟨37, _⟩ => ⟨S131072x1, .f32⟩
  | .hbm, ⟨38, _⟩ => ⟨S131072x1, .f32⟩
  | .hbm, ⟨39, _⟩ => ⟨S_, .f32⟩
  | .hbm, ⟨40, _⟩ => ⟨S131072x1, .f32⟩
  | .hbm, ⟨41, _⟩ => ⟨S131072x1, .f32⟩
  | .hbm, ⟨42, _⟩ => ⟨S32x4096x1, .f32⟩
  | .hbm, ⟨43, _⟩ => ⟨S32x4096, .f32⟩
  | .hbm, ⟨44, _⟩ => ⟨S_, .f32⟩
  | .hbm, ⟨45, _⟩ => ⟨S32, .f32⟩
  | .hbm, ⟨46, _⟩ => ⟨S32x4096x1, .f32⟩
  | .hbm, ⟨47, _⟩ => ⟨S32x4096x1, .f32⟩
  | .hbm, ⟨48, _⟩ => ⟨S_, .f32⟩
  | .hbm, ⟨49, _⟩ => ⟨S32x1, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32x1, .f32⟩
  | .hbm, ⟨54, _⟩ => ⟨S32x1, .f32⟩
  | .hbm, ⟨55, _⟩ => ⟨S32, .f32⟩
  | .hbm, ⟨56, _⟩ => ⟨S32x1, .f32⟩
  | .hbm, ⟨57, _⟩ => ⟨S131072x1, .f32⟩
  | .hbm, ⟨58, _⟩ => ⟨S131072x1, .f32⟩
  | .hbm, ⟨59, _⟩ => ⟨S131072x1, .f32⟩
  | .hbm, ⟨60, _⟩ => ⟨S131072x1, .f32⟩
  | .hbm, ⟨61, _⟩ => ⟨S32x4096, .f32⟩
  | .hbm, ⟨62, _⟩ => ⟨S131072, .f32⟩
  | .hbm, ⟨63, _⟩ => ⟨S131072, .f32⟩
  | .hbm, ⟨64, _⟩ => ⟨S131072x1, .f32⟩
  | _, _ => ⟨S32x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  shapeCasts_S32x1x1024x1024_S32x1x64x16x64x16 : S32x1x1024x1024.ShapeCasts S32x1x64x16x64x16
  reducesTo_S32x1x64x16x64x16_S32x1x64x64_d3_5 : S32x1x64x16x64x16.ReducesTo [3, 5] S32x1x64x64
  h_S_ : 0 < S_.numel
  bcast_S_S32x1x64x64 : S_.BroadcastsInDim S32x1x64x64 (![] : Fin 0 → Fin S32x1x64x64.rank)
  natLt_1_32 : 1 < 32
  reducesTo_S32x1x64x64_S_d0_1_2_3 : S32x1x64x64.ReducesTo [0, 1, 2, 3] S_
  shapeCasts_S32x1x64x64_S32x64x64 : S32x1x64x64.ShapeCasts S32x64x64
  shapeCasts_S32x64x64_S131072 : S32x64x64.ShapeCasts S131072
  transposes_S32x1x64x64_S32x64x64x1_0_2_3_1 : S32x1x64x64.Transposes [0, 2, 3, 1] S32x64x64x1
  shapeCasts_S32x64x64x1_S131072x1 : S32x64x64x1.ShapeCasts S131072x1
  bcast_S_S131072x1 : S_.BroadcastsInDim S131072x1 (![] : Fin 0 → Fin S131072x1.rank)
  shapeCasts_S131072x1_S32x4096x1 : S131072x1.ShapeCasts S32x4096x1
  shapeCasts_S131072_S32x4096 : S131072.ShapeCasts S32x4096
  reducesTo_S32x4096_S32_d1 : S32x4096.ReducesTo [1] S32
  bcast_S32x4096_S32x4096x1_0_1 : S32x4096.BroadcastsInDim S32x4096x1 (![0, 1] : Fin 2 → Fin S32x4096x1.rank)
  reducesTo_S32x4096x1_S32x1_d1 : S32x4096x1.ReducesTo [1] S32x1
  bcast_S_S32 : S_.BroadcastsInDim S32 (![] : Fin 0 → Fin S32.rank)
  bcast_S32_S32x1_0 : S32.BroadcastsInDim S32x1 (![0] : Fin 1 → Fin S32x1.rank)
  bcast_S131072_S131072x1_0 : S131072.BroadcastsInDim S131072x1 (![0] : Fin 1 → Fin S131072x1.rank)
  bcast_S32_S32x4096_0 : S32.BroadcastsInDim S32x4096 (![0] : Fin 1 → Fin S32x4096.rank)
  shapeCasts_S32x4096_S131072 : S32x4096.ShapeCasts S131072

variable [Facts₀]

class Facts : Prop extends Facts₀ where

variable [Facts]
-- ==== Proof.PoolMath.lean ====
/-
  The arithmetic both programs share, with no program in sight.

  A 1024 × 1024 mask is average-pooled over 16 × 16 boxes and thresholded at one half.  One side sums a box's
  sixteen columns first and its sixteen rows second and multiplies by 2⁻⁸; the other sums the 256 entries of the
  box in one sweep and divides by 256.  On the extended reals addition is commutative and associative at the
  infinities too, and division by the real 256 IS multiplication by the real 1/256 everywhere, so the two pooled
  values are one extended real and no finiteness of the entries is needed.  The thresholded bit is then turned into
  the float 0 or 1 and tested again for being positive, which gives the bit back.
-/
import Idealize.ShloMosaic.PureOps.Ideal
import Idealize.ShloMosaic.PureOps.Ideal.Laws
import Idealize.ShloMosaic.Lib.ValueIdx

noncomputable section

namespace Cert.Pool

open Idealize.ShloMosaic

/-! ## The three float patterns -/

/-- The pattern of `+0.0` denotes zero. -/
theorem ofBits_zero : Ideal.ofBits .f32 0x00000000#32 = 0 := by
  simp [Ideal.ofBits, Ideal.ieee]

/-- The pattern `0x3B800000` denotes 2⁻⁸ = 1/256 exactly. -/
theorem ofBits_inv256 : Ideal.ofBits .f32 0x3B800000#32 = ((1 / 256 : ℝ) : EReal) := by
  simp [Ideal.ofBits, Ideal.ieee, -EReal.coe_mul]; norm_num

/-- The pattern `0x43800000` denotes 256. -/
theorem ofBits_256 : Ideal.ofBits .f32 0x43800000#32 = ((256 : ℝ) : EReal) := by
  simp [Ideal.ofBits, Ideal.ieee, -EReal.coe_mul]; norm_num

/-- Scaling by the pattern of 1/256 is dividing by the pattern of 256, on every extended real. -/
theorem mul_inv256_eq_div_256 (S : EReal) :
    S * Ideal.ofBits .f32 0x3B800000#32 = Ideal.div S (Ideal.ofBits .f32 0x43800000#32) := by
  rw [ofBits_inv256, ofBits_256, Ideal.div_coe (by norm_num : (256 : ℝ) ≠ 0)]

/-! ## A bit, made a float, is positive exactly when it is set -/

/-- The one-bit word widened to 32 bits, read as a signed integer and made a float, exceeds zero iff the bit is one. -/
theorem flag_pos (b : BitVec 1) :
    Ideal.cmp .ogt ((((b.setWidth 32).toInt : ℝ)) : EReal) (Ideal.ofBits .f32 0x00000000#32) = b := by
  rw [ofBits_zero]
  by_cases h : b = 1#1
  · subst h
    have e : ((1#1 : BitVec 1).setWidth 32).toInt = 1 := by decide
    rw [e]; simp [Ideal.cmp]
  · have h0 : b = 0#1 := ValueIdx.eq_zero_of_ne_one h
    subst h0
    have e : ((0#1 : BitVec 1).setWidth 32).toInt = 0 := by decide
    rw [e]; simp [Ideal.cmp]

/-- The float 0 / 1 stored for a box whose entries sum to `S`: the bit "`S · 2⁻⁸` exceeds one half", widened to 32 bits, read
    as a signed integer and made a float. -/
def flagOf (S : EReal) : EReal :=
  ((((Ideal.cmp .ogt (S * Ideal.ofBits .f32 0x3B800000#32) (Ideal.ofBits .f32 0x3F000000#32)).setWidth 32).toInt : ℝ) : EReal)

/-- Testing that float for being positive gives the bit back, and the bit is the plain program's: the sum (from the initial
    value zero) divided by 256 exceeds one half. -/
theorem flagOf_pos (S : EReal) :
    Ideal.cmp .ogt (flagOf S) (Ideal.ofBits .f32 0x00000000#32)
      = Ideal.cmp .ogt (Ideal.div (Ideal.ofBits .f32 0x00000000#32 + S) (Ideal.ofBits .f32 0x43800000#32)) (Ideal.ofBits .f32 0x3F000000#32) := by
  unfold flagOf
  rw [flag_pos, mul_inv256_eq_div_256, ofBits_zero, zero_add]

/-! ## A sum over a fibre, re-indexed -/

/-- The sum over the indices that `drop` sends to `j` is the sum over a parameter type that `L` maps one-to-one onto that
    fibre (`R` recovers the parameter). -/
theorem sum_fibre {ι κ α M : Type*} [Fintype ι] [Fintype α] [DecidableEq κ] [AddCommMonoid M]
    (drop : ι → κ) (j : κ) (L : α → ι) (R : ι → α) (hL : ∀ a, drop (L a) = j) (hRL : ∀ a, R (L a) = a)
    (hLR : ∀ i, drop i = j → L (R i) = i) (f : ι → M) :
    ∑ i ∈ Finset.univ.filter (fun i => drop i = j), f i = ∑ a, f (L a) := by
  refine Finset.sum_nbij' R L ?_ ?_ ?_ ?_ ?_
  · intro i _; exact Finset.mem_univ _
  · intro a _; exact Finset.mem_filter.2 ⟨Finset.mem_univ _, hL a⟩
  · intro i hi; exact hLR i (Finset.mem_filter.1 hi).2
  · intro a _; exact hRL a
  · intro i hi; rw [hLR i (Finset.mem_filter.1 hi).2]

end Cert.Pool

end
-- ==== Proof.PoolBlock.lean ====
/-
  One 128 × 1024 slab of a mask, pooled: what the kernel's body computes from the block it loads.

  The slab [1,1,128,1024] is re-read as [128,1024] and then as [128,64,16]; summing the last axis gives, at (row, q), the
  sum of the sixteen columns 16q … 16q+15 of that row.  The [128,64] table of row sums is re-read as [8,16,64]; summing
  its middle axis gives, at (p, q), the sum over the sixteen rows 16p … 16p+15 of those row sums: the sum of the 16 × 16
  box (p, q) of the slab.  Every re-reading keeps the row-major position, so each is an arithmetic identity on
  coordinates.
-/
import Idealize.ShloMosaic.PureOps.Ideal
import Idealize.ShloMosaic.PureOps.Ideal.Laws
import Idealize.ShloMosaic.Lib.ValueIdx
import Idealize.ShloMosaic.Lib.Pipeline.Value

noncomputable section

namespace Cert.Pool

open Idealize.ShloMosaic Idealize.ShloMosaic.ValueIdx

abbrev Slab : Shape := ⟨4, ![1, 1, 128, 1024]⟩
abbrev SlabRows : Shape := ⟨2, ![128, 1024]⟩
abbrev SlabCols16 : Shape := ⟨3, ![128, 64, 16]⟩
abbrev SlabRowSums : Shape := ⟨2, ![128, 64]⟩
abbrev SlabRows16 : Shape := ⟨3, ![8, 16, 64]⟩
abbrev SlabPooled : Shape := ⟨2, ![8, 64]⟩
abbrev SlabOut : Shape := ⟨4, ![1, 1, 8, 64]⟩

/-- Row `16p + r` of the slab: row `r` of the `p`-th band of sixteen rows. -/
def slabRow (p : Fin 8) (r : Fin 16) : Fin 128 := ⟨16 * p.val + r.val, by omega⟩
/-- Column `16q + s`: column `s` of the `q`-th band of sixteen columns. -/
def boxCol (q : Fin 64) (s : Fin 16) : Fin 1024 := ⟨16 * q.val + s.val, by omega⟩

/-- The sum of the 16 × 16 box `(p, q)` of a slab. -/
def slabBoxSum (x : Slab.Idx → EReal) (p : Fin 8) (q : Fin 64) : EReal :=
  ∑ r : Fin 16, ∑ s : Fin 16, x (ix4 0 0 (slabRow p r) (boxCol q s))

/-- The sum over the last axis of the slab read as [128,64,16] is, at (row, q), the sum of the row's sixteen columns of band `q`. -/
theorem slab_row_sums (x : Slab.Idx → EReal) (h1 : Slab.ShapeCasts SlabRows) (h2 : SlabRows.ShapeCasts SlabCols16)
    (h3 : SlabCols16.Reduces [2] SlabRowSums) (hφ : FKind.Formats .f32) (hacc : (0x00000000#32 : BitVec 32) = FKind.add.neutral .f32 hφ)
    (row : Fin 128) (q : Fin 64) :
    multiReduction (F := Ideal) .add [2] SlabRowSums (shapeCast SlabCols16 (shapeCast SlabRows x h1) h2) 0x00000000#32 h3 hφ hacc (ix2 row q)
      = ∑ s : Fin 16, x (ix4 0 0 row (boxCol q s)) := by
  refine (Ideal.multiReduction_add_single _ 0x00000000#32 h3 hφ hacc (ix2 row q)).trans ?_
  refine Finset.sum_congr rfl fun s _ => ?_
  refine (shapeCast_apply _ h2 _ (ix2 row (boxCol q s)) ?_).trans ?_
  · rw [Shape.rowMajor_val_two, Shape.rowMajor_val_three]
    show row.val * 1024 + (16 * q.val + s.val) = (row.val * 64 + q.val) * 16 + s.val
    omega
  · refine shapeCast_apply _ h1 _ (ix4 0 0 row (boxCol q s)) ?_
    rw [Shape.rowMajor_val_four, Shape.rowMajor_val_two]
    show ((0 * 1 + 0) * 128 + row.val) * 1024 + (16 * q.val + s.val) = row.val * 1024 + (16 * q.val + s.val)
    omega

/-- The two sums the body takes, one after the other, are the box sum. -/
theorem slab_box_sum (x : Slab.Idx → EReal) (h1 : Slab.ShapeCasts SlabRows) (h2 : SlabRows.ShapeCasts SlabCols16)
    (h3 : SlabCols16.Reduces [2] SlabRowSums) (h4 : SlabRowSums.ShapeCasts SlabRows16) (h5 : SlabRows16.Reduces [1] SlabPooled)
    (hφ : FKind.Formats .f32) (hacc : (0x00000000#32 : BitVec 32) = FKind.add.neutral .f32 hφ) (p : Fin 8) (q : Fin 64) :
    multiReduction (F := Ideal) .add [1] SlabPooled
        (shapeCast SlabRows16 (multiReduction (F := Ideal) .add [2] SlabRowSums (shapeCast SlabCols16 (shapeCast SlabRows x h1) h2) 0x00000000#32 h3 hφ hacc) h4)
        0x00000000#32 h5 hφ hacc (ix2 p q)
      = slabBoxSum x p q := by
  refine (Ideal.multiReduction_add_single _ 0x00000000#32 h5 hφ hacc (ix2 p q)).trans ?_
  unfold slabBoxSum
  refine Finset.sum_congr rfl fun r _ => ?_
  refine (shapeCast_apply _ h4 _ (ix2 (slabRow p r) q) ?_).trans (slab_row_sums x h1 h2 h3 hφ hacc (slabRow p r) q)
  rw [Shape.rowMajor_val_two, Shape.rowMajor_val_three]
  show (16 * p.val + r.val) * 64 + q.val = (p.val * 16 + r.val) * 64 + q.val
  omega

end Cert.Pool

end
-- ==== Proof.KernelPay.lean ====
/-
  The kernel body's two stored values, read at an index of the 8 × 64 output block.

  From the 128 × 1024 slab it loads, the body takes the sum of each 16 × 16 box (columns first, rows second), scales it
  by 2⁻⁸, compares the result with one half, widens the bit to 32 bits and makes it a float: the stored entry (p, q) is the
  float 1 when the scaled sum of box (p, q) exceeds one half and the float 0 otherwise.  The second output is the same
  function of the second slab.
-/
import proofs.«136621_j38439957299574_1_alg».proof.Proof.Gen.KernelIdeal.Skeleton
import proofs.«136621_j38439957299574_1_alg».proof.Proof.PoolMath
import proofs.«136621_j38439957299574_1_alg».proof.Proof.PoolBlock

noncomputable section

namespace Cert.Pool

open Idealize.ShloMosaic Idealize.ShloMosaic.ValueIdx Cert.KernelIdeal Cert.KernelIdeal.Gen
open Cert.KernelIdeal.Facts₀ Cert.KernelIdeal.Facts

/-- The first stored value at (p, q): the flag of box (p, q) of the first slab. -/
theorem pay1_at (x0 : Vec Ideal S1x1x128x1024 .f32) (p : Fin 8) (q : Fin 64) :
    k0_pay1 (F := Ideal) x0 (ix4 0 0 p q) = flagOf (slabBoxSum x0 p q) := by
  unfold k0_pay1
  refine (shapeCast_apply _ Facts₀.shapeCasts_S8x64_S1x1x8x64 _ (ix2 p q) ?_).trans ?_
  · rw [Shape.rowMajor_val_two, Shape.rowMajor_val_four]
    show p.val * 64 + q.val = ((0 * 1 + 0) * 8 + p.val) * 64 + q.val
    omega
  · exact congrArg flagOf (slab_box_sum x0 _ _ _ _ _ (.inl rfl) rfl p q)

/-- The second stored value at (p, q): the flag of box (p, q) of the second slab. -/
theorem pay2_at (x1 : Vec Ideal S1x1x128x1024 .f32) (p : Fin 8) (q : Fin 64) :
    k0_pay2 (F := Ideal) x1 (ix4 0 0 p q) = flagOf (slabBoxSum x1 p q) := by
  unfold k0_pay2
  refine (shapeCast_apply _ Facts₀.shapeCasts_S8x64_S1x1x8x64 _ (ix2 p q) ?_).trans ?_
  · rw [Shape.rowMajor_val_two, Shape.rowMajor_val_four]
    show p.val * 64 + q.val = ((0 * 1 + 0) * 8 + p.val) * 64 + q.val
    omega
  · exact congrArg flagOf (slab_box_sum x1 _ _ _ _ _ (.inl rfl) rfl p q)

/-- An index of the [1,1,8,64] block is (0, 0, p, q). -/
theorem out_idx (y : S1x1x8x64.Idx) : y = ix4 (0 : Fin 1) (0 : Fin 1) (y 2) (y 3) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
  | ⟨3, _⟩ => rfl

/-- The two stored values at any index of the output block. -/
theorem pay1_apply (x0 : Vec Ideal S1x1x128x1024 .f32) (y : S1x1x8x64.Idx) :
    k0_pay1 (F := Ideal) x0 y = flagOf (slabBoxSum x0 (y 2) (y 3)) :=
  (congrArg (k0_pay1 (F := Ideal) x0) (out_idx y)).trans (pay1_at x0 (y 2) (y 3))
theorem pay2_apply (x1 : Vec Ideal S1x1x128x1024 .f32) (y : S1x1x8x64.Idx) :
    k0_pay2 (F := Ideal) x1 y = flagOf (slabBoxSum x1 (y 2) (y 3)) :=
  (congrArg (k0_pay2 (F := Ideal) x1) (out_idx y)).trans (pay2_at x1 (y 2) (y 3))

end Cert.Pool

end
-- ==== Proof.PoolArray.lean ====
/-
  The whole 32 × 1 × 1024 × 1024 mask, pooled in one sweep: what the plain program computes.

  The mask is re-read as [32,1,64,16,64,16] — entry (b, z, P, r, Q, s) is the mask's entry (b, z, 16P + r, 16Q + s) — and
  summed over its fourth and sixth axes.  The indices that drop to (b, z, P, Q) are exactly the 256 indices
  (b, z, P, r, Q, s), one per pair (r, s), so the sum over them is the double sum over r and s of the mask's entries in the
  16 × 16 box (P, Q) of image (b, z).
-/
import proofs.«136621_j38439957299574_1_alg».proof.Proof.PoolMath
import Idealize.ShloMosaic.Lib.Pipeline.Value

noncomputable section

namespace Cert.Pool

open Idealize.ShloMosaic Idealize.ShloMosaic.ValueIdx

abbrev Mask : Shape := ⟨4, ![32, 1, 1024, 1024]⟩
abbrev MaskBoxes : Shape := ⟨6, ![32, 1, 64, 16, 64, 16]⟩
abbrev PooledMask : Shape := ⟨4, ![32, 1, 64, 64]⟩

/-- Row `16P + r` of the mask: row `r` of the `P`-th band of sixteen rows. -/
def maskRow (P : Fin 64) (r : Fin 16) : Fin 1024 := ⟨16 * P.val + r.val, by omega⟩
/-- Column `16Q + s` of the mask. -/
def maskCol (Q : Fin 64) (s : Fin 16) : Fin 1024 := ⟨16 * Q.val + s.val, by omega⟩

/-- The sum of the 16 × 16 box `(P, Q)` of image `(b, z)` of the mask. -/
def boxSum (x : Mask.Idx → EReal) (b : Fin 32) (z : Fin 1) (P Q : Fin 64) : EReal :=
  ∑ r : Fin 16, ∑ s : Fin 16, x (ix4 b z (maskRow P r) (maskCol Q s))

/-- A rank-6 index of the re-read mask from its coordinates. -/
abbrev ix6 (b : Fin 32) (z : Fin 1) (P : Fin 64) (r : Fin 16) (Q : Fin 64) (s : Fin 16) : MaskBoxes.Idx :=
  fun d => match d with | ⟨0, _⟩ => b | ⟨1, _⟩ => z | ⟨2, _⟩ => P | ⟨3, _⟩ => r | ⟨4, _⟩ => Q | ⟨5, _⟩ => s

/-- The row-major position of a rank-6 index of the re-read mask. -/
theorem rowMajor_ix6 (b : Fin 32) (z : Fin 1) (P : Fin 64) (r : Fin 16) (Q : Fin 64) (s : Fin 16) :
    (MaskBoxes.rowMajor (ix6 b z P r Q s)).val
      = ((((b.val * 1 + z.val) * 64 + P.val) * 16 + r.val) * 64 + Q.val) * 16 + s.val := by
  rw [Shape.rowMajor_val_succ, Shape.rowMajor_val_five]
  have hn : (⟨5, fun a : Fin 5 => (![32, 1, 64, 16, 64, 16] : Fin 6 → Nat) a.succ⟩ : Shape).numel = 1048576 := by decide
  rw [hn]
  show b.val * 1048576 + ((((z.val * 64 + P.val) * 16 + r.val) * 64 + Q.val) * 16 + s.val) = _
  have hz : z.val = 0 := by omega
  omega

/-- The plain program's pooled sum at (b, z, P, Q): the initial value plus the box sum. -/
theorem host_box_sum (x : Mask.Idx → EReal) (h1 : Mask.ShapeCasts MaskBoxes) (h2 : MaskBoxes.ReducesTo [3, 5] PooledMask) (init : EReal)
    (b : Fin 32) (z : Fin 1) (P Q : Fin 64) :
    Ideal.hostReduceAdd h2 (shapeCast MaskBoxes x h1) init (ix4 b z P Q) = init + boxSum x b z P Q := by
  unfold Ideal.hostReduceAdd
  refine congrArg (init + ·) ?_
  rw [sum_fibre h2.drop (ix4 b z P Q) (fun rs : Fin 16 × Fin 16 => ix6 b z P rs.1 Q rs.2) (fun i => (i 3, i 5))
    (fun rs => by
      funext a; apply Fin.ext
      match a with
      | ⟨0, _⟩ => exact h2.drop_apply_val_of_eq _ ⟨0, by decide⟩ 0
      | ⟨1, _⟩ => exact h2.drop_apply_val_of_eq _ ⟨1, by decide⟩ 1
      | ⟨2, _⟩ => exact h2.drop_apply_val_of_eq _ ⟨2, by decide⟩ 2
      | ⟨3, _⟩ => exact h2.drop_apply_val_of_eq _ ⟨3, by decide⟩ 4)
    (fun rs => rfl)
    (fun i hi => by
      have e0 : (i 0).val = b.val := (h2.drop_apply_val_of_eq i ⟨0, by decide⟩ 0).symm.trans (congrArg Fin.val (congrFun hi ⟨0, by decide⟩))
      have e1 : (i 1).val = z.val := (h2.drop_apply_val_of_eq i ⟨1, by decide⟩ 1).symm.trans (congrArg Fin.val (congrFun hi ⟨1, by decide⟩))
      have e2 : (i 2).val = P.val := (h2.drop_apply_val_of_eq i ⟨2, by decide⟩ 2).symm.trans (congrArg Fin.val (congrFun hi ⟨2, by decide⟩))
      have e4 : (i 4).val = Q.val := (h2.drop_apply_val_of_eq i ⟨3, by decide⟩ 4).symm.trans (congrArg Fin.val (congrFun hi ⟨3, by decide⟩))
      funext a; apply Fin.ext
      match a with
      | ⟨0, _⟩ => exact e0.symm
      | ⟨1, _⟩ => exact e1.symm
      | ⟨2, _⟩ => exact e2.symm
      | ⟨3, _⟩ => rfl
      | ⟨4, _⟩ => exact e4.symm
      | ⟨5, _⟩ => rfl)]
  rw [Fintype.sum_prod_type]
  unfold boxSum
  refine Finset.sum_congr rfl fun r _ => Finset.sum_congr rfl fun s _ => ?_
  show shapeCast MaskBoxes x h1 (ix6 b z P r Q s) = _
  refine shapeCast_apply x h1 _ (ix4 b z (maskRow P r) (maskCol Q s)) ?_
  rw [rowMajor_ix6, Shape.rowMajor_val_four]
  show ((b.val * 1 + z.val) * 1024 + (16 * P.val + r.val)) * 1024 + (16 * Q.val + s.val) = _
  omega

end Cert.Pool

end
-- ==== Proof.PoolJoin.lean ====
/-
  The two poolings meet: the kernel's slab at grid point (b, h) is rows 128h … 128h + 127 of image b of the mask, so its box
  (p, q) is the mask's box (8h + p, q); and the bit each program finally holds for a box is one bit.
-/
import proofs.«136621_j38439957299574_1_alg».proof.Proof.PoolMath
import proofs.«136621_j38439957299574_1_alg».proof.Proof.PoolBlock
import proofs.«136621_j38439957299574_1_alg».proof.Proof.PoolArray

noncomputable section

namespace Cert.Pool

open Idealize.ShloMosaic Idealize.ShloMosaic.ValueIdx

/-- Row `R` of the slab at band `h` is row `128h + R` of the mask. -/
def bandRow (h : Fin 8) (R : Fin 128) : Fin 1024 := ⟨128 * h.val + R.val, by omega⟩
/-- Row `p` of the pooled block at band `h` is row `8h + p` of the pooled mask. -/
def bandCell (h : Fin 8) (p : Fin 8) : Fin 64 := ⟨8 * h.val + p.val, by omega⟩

/-- A slab that is band `h` of image `b` of a mask has, as its box (p, q), the mask's box (8h + p, q). -/
theorem slab_box_of_mask (A : Mask.Idx → EReal) (x0 : Slab.Idx → EReal) (b : Fin 32) (h : Fin 8)
    (hx : ∀ (R : Fin 128) (C : Fin 1024), x0 (ix4 0 0 R C) = A (ix4 b 0 (bandRow h R) C)) (p : Fin 8) (q : Fin 64) :
    slabBoxSum x0 p q = boxSum A b 0 (bandCell h p) q := by
  unfold slabBoxSum boxSum
  refine Finset.sum_congr rfl fun r _ => Finset.sum_congr rfl fun s _ => ?_
  rw [hx]
  have e : bandRow h (slabRow p r) = maskRow (bandCell h p) r :=
    Fin.ext (by show 128 * h.val + (16 * p.val + r.val) = 16 * (8 * h.val + p.val) + r.val; omega)
  rw [e]
  rfl

/-- The pooled flags of a whole mask: at (b, z, P, Q) the flag of the mask's box (P, Q) of image (b, z). -/
def pooledFlags (A : Mask.Idx → EReal) : PooledMask.Idx → EReal :=
  fun j => flagOf (boxSum A (j 0) (j 1) (j 2) (j 3))

/-- THE TWO MASKS ARE ONE.  The plain program's bit for a cell — the box sum from zero, divided by 256, above one half —
    is the kernel program's — the stored flag of the cell above zero: the flag is the float of the bit "box sum times 2⁻⁸
    above one half", scaling by 2⁻⁸ is dividing by 256 on every extended real, and a bit made a float is positive exactly
    when it is set. -/
theorem pooled_bit (A : Mask.Idx → EReal) (h1 : Mask.ShapeCasts MaskBoxes) (h2 : MaskBoxes.ReducesTo [3, 5] PooledMask)
    (hS : 0 < (⟨0, ![]⟩ : Shape).numel) (hb hb' : (⟨0, ![]⟩ : Shape).BroadcastsInDim PooledMask ![]) :
    cmpf (F := Ideal) (φ := .f32) .ogt
        (Host.divf (F := Ideal) (Host.reduceAdd (F := Ideal) (shapeCast MaskBoxes A h1) (constant (F := Ideal) ⟨0, ![]⟩ .f32 0x00000000#32) h2 hS)
          (broadcastInDim PooledMask ![] hb (constant (F := Ideal) ⟨0, ![]⟩ .f32 0x43800000#32)))
        (broadcastInDim PooledMask ![] hb (constant (F := Ideal) ⟨0, ![]⟩ .f32 0x3F000000#32))
      = cmpf (F := Ideal) (φ := .f32) .ogt (pooledFlags A) (broadcastInDim PooledMask ![] hb' (constant (F := Ideal) ⟨0, ![]⟩ .f32 0x00000000#32)) := by
  funext j
  obtain ⟨b, z, P, Q, rfl⟩ : ∃ (b : Fin 32) (z : Fin 1) (P Q : Fin 64), j = ix4 b z P Q := ⟨j 0, j 1, j 2, j 3, eq_ix4 j⟩
  show Ideal.cmp .ogt (Ideal.div (Ideal.hostReduceAdd h2 (shapeCast MaskBoxes A h1) (Ideal.ofBits .f32 0x00000000#32) (ix4 b z P Q)) (Ideal.ofBits .f32 0x43800000#32))
        (Ideal.ofBits .f32 0x3F000000#32)
      = Ideal.cmp .ogt (flagOf (boxSum A b z P Q)) (Ideal.ofBits .f32 0x00000000#32)
  rw [host_box_sum, flagOf_pos]

end Cert.Pool

end
-- ==== Proof.KernelArr.lean ====
/-
  From blocks to the two whole output arrays of the kernel.

  Grid point (b, h) loads, of each mask, the slab "image b, rows 128h … 128h + 127" and writes back, of each output, the
  block "image b, rows 8h … 8h + 7".  What it writes at (0, 0, p, q) of the block is the flag of the slab's box (p, q),
  which is the mask's box (8h + p, q) of image b: the entry (b, 0, 8h + p, q) of the mask's pooled flags.  The 32 × 8 blocks
  tile the [32,1,64,64] array, so after the run each output array IS the pooled flags of its mask.
-/
import proofs.«136621_j38439957299574_1_alg».proof.Proof.Gen.KernelIdeal.Frame
import proofs.«136621_j38439957299574_1_alg».proof.Proof.KernelPay
import proofs.«136621_j38439957299574_1_alg».proof.Proof.PoolJoin
import Idealize.ShloMosaic.Lib.Pipeline.Value

set_option maxRecDepth 16384

noncomputable section

namespace Cert.KernelIdeal.PoolValue

open Idealize.ShloMosaic Idealize.ShloMosaic.TcCoe Idealize.ShloMosaic.ValueIdx Idealize.SL.Sem
open Cert.KernelIdeal Cert.KernelIdeal.Gen Cert.Pool
open Idealize.ShloMosaic.Pipeline (Dat)

variable (m : (ℓ : Loc nD τ sig) → Buf (Elt Ideal) ℓ)

theorem zero_offsets : (![0, 0, 0, 0] : Fin 4 → Nat) = fun _ => 0 := funext fun a => by fin_cases a <;> rfl

/-- The printed index maps, decided over the grid: at every point the two inputs' blocks and the two outputs' blocks sit
    at the same image and the same band, with block index zero on the two other axes. -/
theorem index_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_3.index t (0 : Fin 4) = win0_2.index t (0 : Fin 4) ∧ win0_3.index t (1 : Fin 4) = 0
    ∧ win0_3.index t (2 : Fin 4) = win0_2.index t (2 : Fin 4) ∧ win0_3.index t (3 : Fin 4) = 0
    ∧ win0_2.index t (0 : Fin 4) < 32 ∧ win0_2.index t (1 : Fin 4) = 0
    ∧ win0_2.index t (2 : Fin 4) < 8 ∧ win0_2.index t (3 : Fin 4) = 0 :=
  (by decide +kernel : ∀ t : Fin grid0.N, _)

/-- Every (image, band) is some grid point's. -/
theorem index_onto : ∀ (b : Fin 32) (h : Fin 8), ∃ t : Fin cfg0.N, win0_2.index t (0 : Fin 4) = b.val ∧ win0_2.index t (2 : Fin 4) = h.val :=
  (by decide +kernel : ∀ (b : Fin 32) (h : Fin 8), ∃ t : Fin grid0.N, win0_2.index t (0 : Fin 4) = b.val ∧ win0_2.index t (2 : Fin 4) = h.val)

/-- An input window's block at point `t`, read at (0, 0, R, C), is its array at (image, 0, 128·band + R, C). -/
theorem in_block_at (A : S32x1x1024x1024.Idx → EReal) (idx : Fin 4 → Nat) (b : Fin 32) (h : Fin 8)
    (e0 : idx 0 = b.val) (e1 : idx 1 = 0) (e2 : idx 2 = h.val) (e3 : idx 3 = 0)
    (i : S32x1x1024x1024.Idx) (R : Fin 128) (C : Fin 1024)
    (h0 : (i 0).val = idx 0 * 1 + 1 * 0) (h1 : (i 1).val = idx 1 * 1 + 1 * 0)
    (h2 : (i 2).val = idx 2 * 128 + 1 * R.val) (h3 : (i 3).val = idx 3 * 1024 + 1 * C.val) :
    A i = A (ix4 b 0 (bandRow h R) C) := by
  refine congrArg A ?_
  funext a; apply Fin.ext
  match a with
  | ⟨0, _⟩ => show (i 0).val = b.val; omega
  | ⟨1, _⟩ => show (i 1).val = 0; omega
  | ⟨2, _⟩ => show (i 2).val = 128 * h.val + R.val; omega
  | ⟨3, _⟩ => show (i 3).val = C.val; omega

/-- The pooled flags at an index given by its coordinates' values. -/
theorem pooledFlags_at (A : S32x1x1024x1024.Idx → EReal) (b : Fin 32) (h p : Fin 8) (q : Fin 64) (j : S32x1x64x64.Idx)
    (h0 : (j 0).val = b.val) (h2 : (j 2).val = 8 * h.val + p.val) (h3 : (j 3).val = q.val) :
    flagOf (boxSum A b 0 (bandCell h p) q) = pooledFlags A j := by
  show _ = flagOf (boxSum A (j 0) (j 1) (j 2) (j 3))
  have e0 : b = (j 0 : Fin 32) := Fin.ext h0.symm
  have e1 : (0 : Fin 1) = (j 1 : Fin 1) := Fin.ext (by have hj : (j 1).val < 1 := (j 1).isLt; show 0 = (j 1).val; omega)
  have e2 : bandCell h p = (j 2 : Fin 64) := Fin.ext h2.symm
  have e3 : q = (j 3 : Fin 64) := Fin.ext h3.symm
  rw [e0, e1, e2, e3]

/-- WHAT POINT `t` WRITES BACK to the first output is block `t` of the pooled flags of the first mask. -/
theorem flushed2_eq (c : Dev nD) (t : Fin cfg0.N) :
    (dats m 0 c).flushed 2 t = ((cfg0.win 2).blk t).view.read (Elt Ideal) (pooledFlags (V m c main_arg1)) := by
  show (cfg0.win 2).cut (grid0.coords t) ((dats m 0 c).after 2 t) = _
  rw [after0_2]
  unfold out0_2
  rw [View.canon_unit_zero zero_offsets]
  simp only [View.ld_unit_zero (S := S1x1x128x1024) zero_offsets]
  obtain ⟨e00, e01, e02, e03, -, -, -, -, -, -, -, -, l0, z1, l2, z3⟩ := index_facts t
  funext y
  show k0_pay1 (F := Ideal) (iblk m c 0 t) y = pooledFlags (V m c main_arg1) (((cfg0.win 2).blk t).view.emb y)
  refine (pay1_apply (iblk m c 0 t) y).trans ?_
  refine (congrArg flagOf (slab_box_of_mask (V m c main_arg1) (iblk m c 0 t) ⟨win0_2.index t (0 : Fin 4), l0⟩ ⟨win0_2.index t (2 : Fin 4), l2⟩
    (fun R C => in_block_at (V m c main_arg1) (win0_0.index t) ⟨win0_2.index t (0 : Fin 4), l0⟩ ⟨win0_2.index t (2 : Fin 4), l2⟩ e00 e01 e02 e03
      (((cfg0.win 0).blk t).view.emb (ix4 0 0 R C)) R C rfl rfl rfl rfl) (y 2) (y 3))).trans ?_
  refine pooledFlags_at (V m c main_arg1) _ _ (y 2) (y 3) _ ?_ ?_ ?_
  · show win0_2.index t (0 : Fin 4) * 1 + 1 * (y 0).val = win0_2.index t (0 : Fin 4)
    have := (y 0).isLt
    have hy : (y 0).val < 1 := (y 0).isLt
    omega
  · show win0_2.index t (2 : Fin 4) * 8 + 1 * (y 2).val = 8 * win0_2.index t (2 : Fin 4) + (y 2).val
    omega
  · show win0_2.index t (3 : Fin 4) * 64 + 1 * (y 3).val = (y 3).val
    omega

/-- WHAT POINT `t` WRITES BACK to the second output is block `t` of the pooled flags of the second mask. -/
theorem flushed3_eq (c : Dev nD) (t : Fin cfg0.N) :
    (dats m 0 c).flushed 3 t = ((cfg0.win 3).blk t).view.read (Elt Ideal) (pooledFlags (V m c main_arg2)) := by
  show (cfg0.win 3).cut (grid0.coords t) ((dats m 0 c).after 3 t) = _
  rw [after0_3]
  unfold out0_3
  rw [View.canon_unit_zero zero_offsets]
  simp only [View.ld_unit_zero (S := S1x1x128x1024) zero_offsets]
  obtain ⟨-, -, -, -, e10, e11, e12, e13, e30, e31, e32, e33, l0, z1, l2, z3⟩ := index_facts t
  funext y
  show k0_pay2 (F := Ideal) (iblk m c 1 t) y = pooledFlags (V m c main_arg2) (((cfg0.win 3).blk t).view.emb y)
  refine (pay2_apply (iblk m c 1 t) y).trans ?_
  refine (congrArg flagOf (slab_box_of_mask (V m c main_arg2) (iblk m c 1 t) ⟨win0_2.index t (0 : Fin 4), l0⟩ ⟨win0_2.index t (2 : Fin 4), l2⟩
    (fun R C => in_block_at (V m c main_arg2) (win0_1.index t) ⟨win0_2.index t (0 : Fin 4), l0⟩ ⟨win0_2.index t (2 : Fin 4), l2⟩ e10 e11 e12 e13
      (((cfg0.win 1).blk t).view.emb (ix4 0 0 R C)) R C rfl rfl rfl rfl) (y 2) (y 3))).trans ?_
  refine pooledFlags_at (V m c main_arg2) _ _ (y 2) (y 3) _ ?_ ?_ ?_
  · show win0_3.index t (0 : Fin 4) * 1 + 1 * (y 0).val = win0_2.index t (0 : Fin 4)
    have hy : (y 0).val < 1 := (y 0).isLt
    omega
  · show win0_3.index t (2 : Fin 4) * 8 + 1 * (y 2).val = 8 * win0_2.index t (2 : Fin 4) + (y 2).val
    omega
  · show win0_3.index t (3 : Fin 4) * 64 + 1 * (y 3).val = (y 3).val
    omega

/-! ## The blocks tile the arrays -/

/-- An index of the first output array is in point `t`'s block iff each coordinate is in the block's range on its axis. -/
theorem mem_blk2 (t : Fin cfg0.N) (i : S32x1x64x64.Idx) :
    i ∈ ((cfg0.win 2).blk t).view.set ↔ ∀ a : Fin 4, win0_2.index t a * S1x1x8x64.size a ≤ (i a).val ∧ (i a).val < win0_2.index t a * S1x1x8x64.size a + S1x1x8x64.size a := by
  show i ∈ ((View.whole main_v0_0).slice (win0_2.rect t)).set ↔ _
  rw [View.set_slice_whole, Rect.mem_set_unit]
  exact Iff.rfl
/-- The same for the second output array. -/
theorem mem_blk3 (t : Fin cfg0.N) (i : S32x1x64x64.Idx) :
    i ∈ ((cfg0.win 3).blk t).view.set ↔ ∀ a : Fin 4, win0_3.index t a * S1x1x8x64.size a ≤ (i a).val ∧ (i a).val < win0_3.index t a * S1x1x8x64.size a + S1x1x8x64.size a := by
  show i ∈ ((View.whole main_v0_1).slice (win0_3.rect t)).set ↔ _
  rw [View.set_slice_whole, Rect.mem_set_unit]
  exact Iff.rfl

/-- Every index (b, 0, P, Q) of the first output array is in the block of the point at image `b`, band `P / 8`. -/
theorem cover2 (i : S32x1x64x64.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 64 := (i 2).isLt
  have hi3 : (i 3).val < 64 := (i 3).isLt
  obtain ⟨t, q0, q2⟩ := index_onto ⟨(i 0).val, hi0⟩ ⟨(i 2).val / 8, by omega⟩
  have q0' : win0_2.index t (0 : Fin 4) = (i 0).val := q0
  have q2' : win0_2.index t (2 : Fin 4) = (i 2).val / 8 := q2
  obtain ⟨-, -, -, -, -, -, -, -, -, -, -, -, l0, z1, l2, z3⟩ := index_facts t
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 8 ≤ (i 2).val ∧ (i 2).val < win0_2.index t (2 : Fin 4) * 8 + 8; omega
  | ⟨3, _⟩ => show win0_2.index t (3 : Fin 4) * 64 ≤ (i 3).val ∧ (i 3).val < win0_2.index t (3 : Fin 4) * 64 + 64; omega
/-- The same for the second output array. -/
theorem cover3 (i : S32x1x64x64.Idx) : ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 64 := (i 2).isLt
  have hi3 : (i 3).val < 64 := (i 3).isLt
  obtain ⟨t, q0, q2⟩ := index_onto ⟨(i 0).val, hi0⟩ ⟨(i 2).val / 8, by omega⟩
  have q0' : win0_2.index t (0 : Fin 4) = (i 0).val := q0
  have q2' : win0_2.index t (2 : Fin 4) = (i 2).val / 8 := q2
  obtain ⟨-, -, -, -, -, -, -, -, e30, e31, e32, e33, l0, z1, l2, z3⟩ := index_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 8 ≤ (i 2).val ∧ (i 2).val < win0_3.index t (2 : Fin 4) * 8 + 8; omega
  | ⟨3, _⟩ => show win0_3.index t (3 : Fin 4) * 64 ≤ (i 3).val ∧ (i 3).val < win0_3.index t (3 : Fin 4) * 64 + 64; omega

/-! ## The two output arrays after the run -/

/-- The first output array ends holding the pooled flags of the needle mask as launched. -/
theorem final2 (c : Dev nD) : (dats m 0 c).arrAt 2 cfg0.N = pooledFlags (V m c main_arg1) :=
  (dats m 0 c).arrAt_eq_of_cover 2 (pooledFlags (V m c main_arg1)) (fun t _ => flushed2_eq m c t) cover2
/-- The second output array ends holding the pooled flags of the prostate mask as launched. -/
theorem final3 (c : Dev nD) : (dats m 0 c).arrAt 3 cfg0.N = pooledFlags (V m c main_arg2) :=
  (dats m 0 c).arrAt_eq_of_cover 3 (pooledFlags (V m c main_arg2)) (fun t _ => flushed3_eq m c t) cover3

end Cert.KernelIdeal.PoolValue

end
-- ==== Proof.Tail.lean ====
/-
  What both programs do with the two pooled bit masks: one function of the masks, the heat-map logits and the labels.

  From the needle mask `nm` and the prostate mask `pm` (one bit per 64 × 64 cell of each of the 32 images): their
  conjunction if it has any set bit, else the needle mask; that choice flattened to 131072 bits and read as floats 0 / 1
  (the weights).  From the logits: the transposed, flattened logits and their logistic values.  The six results are the
  per-image weighted mean of the probabilities (weights summed, floored at one), the labels as a column, the weighted
  probabilities, the weighted logits, the weighted repeated labels, and the flattened mask itself.  Both programs apply
  exactly these operations; the certificate never opens them: it only needs the two masks going in to be equal.
-/
import proofs.«136621_j38439957299574_1_alg».proof.Proof.Gen.ReferenceIdeal

noncomputable section

namespace Cert.Tail

open Idealize.ShloMosaic Cert.ReferenceIdeal Cert.ReferenceIdeal.Facts₀ Cert.ReferenceIdeal.Facts

variable {F : FTy → Type} [FloatOps F]

/-- The mask that is used: `nm ∧ pm` when that has a set bit somewhere, else `nm`; flattened to one axis. -/
def chosen (nm pm : IVec S32x1x64x64 1) : IVec S131072 1 :=
  shapeCast S131072
    (shapeCast S32x64x64
      (select
        (broadcastInDim S32x1x64x64 ![] bcast_S_S32x1x64x64
          (cmpi .sgt (Host.reduce IntOp.addi (extui 32 (andi nm pm) natLt_1_32) (constantI S_ 32 0#32) reducesTo_S32x1x64x64_S_d0_1_2_3 h_S_)
            (constantI S_ 32 0#32)))
        (andi nm pm) nm)
      shapeCasts_S32x1x64x64_S32x64x64)
    shapeCasts_S32x64x64_S131072

/-- The chosen mask as floats 0 / 1. -/
def weights (nm pm : IVec S32x1x64x64 1) : FVec F S131072 .f32 := uitofp .f32 (chosen nm pm)

/-- The logits, channel axis last, flattened to a column. -/
def logits (a0 : FVec F S32x1x64x64 .f32) : FVec F S131072x1 .f32 :=
  shapeCast S131072x1 (transpose S32x64x64x1 [0, 2, 3, 1] a0 transposes_S32x1x64x64_S32x64x64x1_0_2_3_1) shapeCasts_S32x64x64x1_S131072x1

/-- Their logistic values, `1 / (1 + exp (-x))`. -/
def probs (a0 : FVec F S32x1x64x64 .f32) : FVec F S131072x1 .f32 :=
  Host.divf (broadcastInDim S131072x1 ![] bcast_S_S131072x1 (constant (F := F) S_ .f32 0x3F800000#32))
    (addf (broadcastInDim S131072x1 ![] bcast_S_S131072x1 (constant (F := F) S_ .f32 0x3F800000#32)) (Host.exp (Host.negf (logits a0))))

/-- The weights, one row per image. -/
def weightRows (nm pm : IVec S32x1x64x64 1) : FVec F S32x4096 .f32 :=
  shapeCast S32x4096 (weights (F := F) nm pm) shapeCasts_S131072_S32x4096

/-- Result 0: per image, the weighted sum of the probabilities over the weights' sum floored at one. -/
def corePredictions (nm pm : IVec S32x1x64x64 1) (a0 : FVec F S32x1x64x64 .f32) : FVec F S32x1 .f32 :=
  Host.divf
    (Host.reduceAdd
      (mulf (shapeCast S32x4096x1 (probs a0) shapeCasts_S131072x1_S32x4096x1)
        (broadcastInDim S32x4096x1 ![0, 1] bcast_S32x4096_S32x4096x1_0_1 (weightRows (F := F) nm pm)))
      (constant (F := F) S_ .f32 0x00000000#32) reducesTo_S32x4096x1_S32x1_d1 h_S_)
    (broadcastInDim S32x1 ![0] bcast_S32_S32x1_0
      (maximumf (Host.reduceAdd (weightRows (F := F) nm pm) (constant (F := F) S_ .f32 0x00000000#32) reducesTo_S32x4096_S32_d1 h_S_)
        (broadcastInDim S32 ![] bcast_S_S32 (constant (F := F) S_ .f32 0x3F800000#32))))

/-- Result 1: the labels as floats, a column. -/
def coreLabels (a3 : IVec S32 32) : FVec F S32x1 .f32 :=
  broadcastInDim S32x1 ![0] bcast_S32_S32x1_0 (sitofp .f32 a3)

/-- Result 2: the weighted probabilities. -/
def patchPredictions (nm pm : IVec S32x1x64x64 1) (a0 : FVec F S32x1x64x64 .f32) : FVec F S131072x1 .f32 :=
  mulf (probs a0) (broadcastInDim S131072x1 ![0] bcast_S131072_S131072x1_0 (weights (F := F) nm pm))

/-- Result 3: the weighted logits. -/
def patchLogits (nm pm : IVec S32x1x64x64 1) (a0 : FVec F S32x1x64x64 .f32) : FVec F S131072x1 .f32 :=
  mulf (logits a0) (broadcastInDim S131072x1 ![0] bcast_S131072_S131072x1_0 (weights (F := F) nm pm))

/-- Result 4: each image's label repeated over its 4096 cells, weighted, a column. -/
def patchLabels (nm pm : IVec S32x1x64x64 1) (a3 : IVec S32 32) : FVec F S131072x1 .f32 :=
  broadcastInDim S131072x1 ![0] bcast_S131072_S131072x1_0
    (mulf (shapeCast S131072 (broadcastInDim S32x4096 ![0] bcast_S32_S32x4096_0 (sitofp (F := F) .f32 a3)) shapeCasts_S32x4096_S131072)
      (weights (F := F) nm pm))

end Cert.Tail

end
-- ==== Proof.KernelTail.lean ====
/-
  The kernel's program after its one region: the host lines, read back as the shared function of the two masks.

  After the region the program compares each output array with zero (a stored float is 0 or 1, so "above zero" recovers the
  bit), and from those two bit masks, the logits and the labels computes its six results by the shared operations.  Read
  from ANY contents of the buffers at the region's exit, each result is the shared function of "the first output array
  above zero", "the second output array above zero", the logits and the labels.
-/
import proofs.«136621_j38439957299574_1_alg».proof.Proof.Gen.KernelIdeal.Launch
import proofs.«136621_j38439957299574_1_alg».proof.Proof.Tail
import Idealize.ShloMosaic.Lib.StableHlo.Run
import Idealize.ShloMosaic.PureOps.Ideal

noncomputable section

namespace Cert.KernelIdeal.PoolValue

open Idealize.ShloMosaic Idealize.ShloMosaic.TcCoe Idealize.SL.Sem Idealize.ShloMosaic.StableHlo
open Cert.KernelIdeal Cert.KernelIdeal.Gen

/-- The bit mask the program makes of an output array: is the stored float above zero? -/
def positive (G : FVec Ideal S32x1x64x64 .f32) : IVec S32x1x64x64 1 :=
  cmpf .ogt G (broadcastInDim S32x1x64x64 ![] Facts₀.bcast_S_S32x1x64x64 (constant (F := Ideal) S_ .f32 0x00000000#32))

variable (W : Valuation τ sig (Elt Ideal))

set_option maxHeartbeats 4000000 in
/-- Result 0 of the host lines: the per-image weighted mean of the probabilities. -/
theorem tail_v30 :
    StableHlo.after (List.flatten [hostOps1, hostOps1_1, hostOps1_2]) W (Proc.devRef .tc main_v30)
      = Cert.Tail.corePredictions (F := Ideal) (positive (W (Proc.devRef .tc main_v0_0))) (positive (W (Proc.devRef .tc main_v0_1))) (W (Proc.devRef .tc main_arg0)) := by
  simp only [hostOps1, hostOps1_1, hostOps1_2, List.flatten_cons, List.flatten_nil, List.append_nil, List.cons_append, List.nil_append]
  after_results_simp
  try simp only [cast_eq]
  rfl

set_option maxHeartbeats 4000000 in
/-- Result 1: the labels as a column. -/
theorem tail_v32 :
    StableHlo.after (List.flatten [hostOps1, hostOps1_1, hostOps1_2]) W (Proc.devRef .tc main_v32)
      = Cert.Tail.coreLabels (F := Ideal) (W (Proc.devRef .tc main_arg3)) := by
  simp only [hostOps1, hostOps1_1, hostOps1_2, List.flatten_cons, List.flatten_nil, List.append_nil, List.cons_append, List.nil_append]
  after_results_simp
  try simp only [cast_eq]
  rfl

set_option maxHeartbeats 4000000 in
/-- Result 2: the weighted probabilities. -/
theorem tail_v36 :
    StableHlo.after (List.flatten [hostOps1, hostOps1_1, hostOps1_2]) W (Proc.devRef .tc main_v36)
      = Cert.Tail.patchPredictions (F := Ideal) (positive (W (Proc.devRef .tc main_v0_0))) (positive (W (Proc.devRef .tc main_v0_1))) (W (Proc.devRef .tc main_arg0)) := by
  simp only [hostOps1, hostOps1_1, hostOps1_2, List.flatten_cons, List.flatten_nil, List.append_nil, List.cons_append, List.nil_append]
  after_results_simp
  try simp only [cast_eq]
  rfl

set_option maxHeartbeats 4000000 in
/-- Result 3: the weighted logits. -/
theorem tail_v34 :
    StableHlo.after (List.flatten [hostOps1, hostOps1_1, hostOps1_2]) W (Proc.devRef .tc main_v34)
      = Cert.Tail.patchLogits (F := Ideal) (positive (W (Proc.devRef .tc main_v0_0))) (positive (W (Proc.devRef .tc main_v0_1))) (W (Proc.devRef .tc main_arg0)) := by
  simp only [hostOps1, hostOps1_1, hostOps1_2, List.flatten_cons, List.flatten_nil, List.append_nil, List.cons_append, List.nil_append]
  after_results_simp
  try simp only [cast_eq]
  rfl

set_option maxHeartbeats 4000000 in
/-- Result 4: the weighted repeated labels. -/
theorem tail_v40 :
    StableHlo.after (List.flatten [hostOps1, hostOps1_1, hostOps1_2]) W (Proc.devRef .tc main_v40)
      = Cert.Tail.patchLabels (F := Ideal) (positive (W (Proc.devRef .tc main_v0_0))) (positive (W (Proc.devRef .tc main_v0_1))) (W (Proc.devRef .tc main_arg3)) := by
  simp only [hostOps1, hostOps1_1, hostOps1_2, List.flatten_cons, List.flatten_nil, List.append_nil, List.cons_append, List.nil_append]
  after_results_simp
  try simp only [cast_eq]
  rfl

set_option maxHeartbeats 4000000 in
/-- Result 5: the chosen mask, flattened. -/
theorem tail_v11 :
    StableHlo.after (List.flatten [hostOps1, hostOps1_1, hostOps1_2]) W (Proc.devRef .tc main_v11)
      = Cert.Tail.chosen (positive (W (Proc.devRef .tc main_v0_0))) (positive (W (Proc.devRef .tc main_v0_1))) := by
  simp only [hostOps1, hostOps1_1, hostOps1_2, List.flatten_cons, List.flatten_nil, List.append_nil, List.cons_append, List.nil_append]
  after_results_simp
  try simp only [cast_eq]
  rfl

end Cert.KernelIdeal.PoolValue

end
-- ==== Proof.KernelRun.lean ====
/-
  The kernel's program, run: its six results as the shared function of the two pooled masks.

  The region leaves each output array at the pooled flags of its mask (the blocks tile the arrays) and every other buffer
  as it was; the host lines then read the two output arrays, the logits and the labels.  So each result is the shared
  function of "the pooled flags of the needle mask, above zero", "the pooled flags of the prostate mask, above zero", the
  logits and the labels, all as launched.
-/
import proofs.«136621_j38439957299574_1_alg».proof.Proof.Gen.KernelIdeal.Frame
import proofs.«136621_j38439957299574_1_alg».proof.Proof.KernelArr
import proofs.«136621_j38439957299574_1_alg».proof.Proof.KernelTail

noncomputable section

namespace Cert.KernelIdeal.PoolValue

open Idealize.ShloMosaic Idealize.ShloMosaic.TcCoe Idealize.SL.Sem Idealize.ShloMosaic.StableHlo
open Cert.KernelIdeal Cert.KernelIdeal.Gen Cert.Pool

variable (m : (ℓ : Loc nD τ sig) → Buf (Elt Ideal) ℓ) (ρ : Dev nD → PrngReg)

/-- The needle bit mask the program computes from the launch contents. -/
def needle (c : Dev nD) : IVec S32x1x64x64 1 := positive (pooledFlags (m ((c.tc : Thread nD τ).loc main_arg1)))
/-- The prostate bit mask the program computes from the launch contents. -/
def prostate (c : Dev nD) : IVec S32x1x64x64 1 := positive (pooledFlags (m ((c.tc : Thread nD τ).loc main_arg2)))

/-- The buffers' contents at the region's exit: the pipeline's arrays as the run leaves them, the others as launched. -/
abbrev exitVal (c : Dev nD) : Valuation τ sig (Elt Ideal) :=
  Pipeline.withArrays spec0 c (V0 m c) fun w => (dats m 0 c).arrAt w cfg0.N

theorem exit_v0_0 (c : Dev nD) : exitVal m c (Proc.devRef .tc main_v0_0) = pooledFlags (m ((c.tc : Thread nD τ).loc main_arg1)) :=
  (Pipeline.withArrays_arr spec0 launch0.win.arr_inj c _ _ 2).trans ((final2 m c).trans (by rw [V_main_arg1]))
theorem exit_v0_1 (c : Dev nD) : exitVal m c (Proc.devRef .tc main_v0_1) = pooledFlags (m ((c.tc : Thread nD τ).loc main_arg2)) :=
  (Pipeline.withArrays_arr spec0 launch0.win.arr_inj c _ _ 3).trans ((final3 m c).trans (by rw [V_main_arg2]))
theorem exit_arg0 (c : Dev nD) : exitVal m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans (V_main_arg0 m c)
theorem exit_arg3 (c : Dev nD) : exitVal m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)

local notation "tailOf" => Pipeline.afterTail₀ cfgs (dats m) 0 (V0 m) [hostOps1, hostOps1_1, hostOps1_2]

theorem result_v30 (c : Dev nD) :
    tailOf c main_v30 = Cert.Tail.corePredictions (F := Ideal) (needle m c) (prostate m c) (m ((c.tc : Thread nD τ).loc main_arg0)) := by
  show StableHlo.after (List.flatten [hostOps1, hostOps1_1, hostOps1_2]) (exitVal m c) (Proc.devRef .tc main_v30) = _
  refine (tail_v30 (exitVal m c)).trans ?_
  rw [exit_v0_0, exit_v0_1, exit_arg0]
  rfl
theorem result_v32 (c : Dev nD) :
    tailOf c main_v32 = Cert.Tail.coreLabels (F := Ideal) (m ((c.tc : Thread nD τ).loc main_arg3)) := by
  show StableHlo.after (List.flatten [hostOps1, hostOps1_1, hostOps1_2]) (exitVal m c) (Proc.devRef .tc main_v32) = _
  refine (tail_v32 (exitVal m c)).trans ?_
  rw [exit_arg3]
theorem result_v36 (c : Dev nD) :
    tailOf c main_v36 = Cert.Tail.patchPredictions (F := Ideal) (needle m c) (prostate m c) (m ((c.tc : Thread nD τ).loc main_arg0)) := by
  show StableHlo.after (List.flatten [hostOps1, hostOps1_1, hostOps1_2]) (exitVal m c) (Proc.devRef .tc main_v36) = _
  refine (tail_v36 (exitVal m c)).trans ?_
  rw [exit_v0_0, exit_v0_1, exit_arg0]
  rfl
theorem result_v34 (c : Dev nD) :
    tailOf c main_v34 = Cert.Tail.patchLogits (F := Ideal) (needle m c) (prostate m c) (m ((c.tc : Thread nD τ).loc main_arg0)) := by
  show StableHlo.after (List.flatten [hostOps1, hostOps1_1, hostOps1_2]) (exitVal m c) (Proc.devRef .tc main_v34) = _
  refine (tail_v34 (exitVal m c)).trans ?_
  rw [exit_v0_0, exit_v0_1, exit_arg0]
  rfl
theorem result_v40 (c : Dev nD) :
    tailOf c main_v40 = Cert.Tail.patchLabels (F := Ideal) (needle m c) (prostate m c) (m ((c.tc : Thread nD τ).loc main_arg3)) := by
  show StableHlo.after (List.flatten [hostOps1, hostOps1_1, hostOps1_2]) (exitVal m c) (Proc.devRef .tc main_v40) = _
  refine (tail_v40 (exitVal m c)).trans ?_
  rw [exit_v0_0, exit_v0_1, exit_arg3]
  rfl
theorem result_v11 (c : Dev nD) :
    tailOf c main_v11 = Cert.Tail.chosen (needle m c) (prostate m c) := by
  show StableHlo.after (List.flatten [hostOps1, hostOps1_1, hostOps1_2]) (exitVal m c) (Proc.devRef .tc main_v11) = _
  refine (tail_v11 (exitVal m c)).trans ?_
  rw [exit_v0_0, exit_v0_1]
  rfl

/-- THE KERNEL PROGRAM'S RUN: every weakly fair execution terminates with the six results at the shared function of the
    two masks, the logits and the labels as launched, and the four arguments unchanged. -/
theorem run : θ_run defs (onTc (τ := τ) (main (F := Ideal))) ⟨m, fun _ => 0, ρ⟩ fun r => ∀ c : Dev nD,
      r.2.mem ((c.tc : Thread nD τ).loc main_v30) = Cert.Tail.corePredictions (F := Ideal) (needle m c) (prostate m c) (m ((c.tc : Thread nD τ).loc main_arg0))
      ∧ r.2.mem ((c.tc : Thread nD τ).loc main_v32) = Cert.Tail.coreLabels (F := Ideal) (m ((c.tc : Thread nD τ).loc main_arg3))
      ∧ r.2.mem ((c.tc : Thread nD τ).loc main_v36) = Cert.Tail.patchPredictions (F := Ideal) (needle m c) (prostate m c) (m ((c.tc : Thread nD τ).loc main_arg0))
      ∧ r.2.mem ((c.tc : Thread nD τ).loc main_v34) = Cert.Tail.patchLogits (F := Ideal) (needle m c) (prostate m c) (m ((c.tc : Thread nD τ).loc main_arg0))
      ∧ r.2.mem ((c.tc : Thread nD τ).loc main_v40) = Cert.Tail.patchLabels (F := Ideal) (needle m c) (prostate m c) (m ((c.tc : Thread nD τ).loc main_arg3))
      ∧ r.2.mem ((c.tc : Thread nD τ).loc main_v11) = Cert.Tail.chosen (needle m c) (prostate m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v30 (Pipeline.mem_restRefs_of main_v30 (by decide) (by decide))).trans (result_v30 m c),
     ((h c).2 main_v32 (Pipeline.mem_restRefs_of main_v32 (by decide) (by decide))).trans (result_v32 m c),
     ((h c).2 main_v36 (Pipeline.mem_restRefs_of main_v36 (by decide) (by decide))).trans (result_v36 m c),
     ((h c).2 main_v34 (Pipeline.mem_restRefs_of main_v34 (by decide) (by decide))).trans (result_v34 m c),
     ((h c).2 main_v40 (Pipeline.mem_restRefs_of main_v40 (by decide) (by decide))).trans (result_v40 m c),
     ((h c).2 main_v11 (Pipeline.mem_restRefs_of main_v11 (by decide) (by decide))).trans (result_v11 m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩)
    (run_main m ρ)

end Cert.KernelIdeal.PoolValue

end
-- ==== Proof.RefValue.lean ====
/-
  The plain program, run: its six results as the shared function of its two pooled masks.

  The plain program re-reads each mask as [32,1,64,16,64,16], sums the fourth and sixth axes from zero, divides by 256 and
  compares with one half: that bit array is its pooled mask.  Everything after that is the shared function of the two
  pooled masks, the logits and the labels; the program's run states each result as one composed term, and that term IS the
  shared function applied to the two pooled masks (the definitions unfold to it).
-/
import proofs.«136621_j38439957299574_1_alg».proof.Proof.RefRun
import proofs.«136621_j38439957299574_1_alg».proof.Proof.Tail
import Idealize.ShloMosaic.PureOps.Ideal

noncomputable section

namespace Cert.ReferenceIdeal.PoolValue

open Idealize.ShloMosaic Idealize.ShloMosaic.TcCoe Idealize.SL.Sem
open Cert.ReferenceIdeal Cert.ReferenceIdeal.Facts₀ Cert.ReferenceIdeal.Facts

/-- The plain program's pooled bit mask of a mask: the 16 × 16 box sums from zero, divided by 256, above one half. -/
def pooledMask (A : FVec Ideal S32x1x1024x1024 .f32) : IVec S32x1x64x64 1 :=
  cmpf .ogt
    (Host.divf
      (Host.reduceAdd (shapeCast S32x1x64x16x64x16 A shapeCasts_S32x1x1024x1024_S32x1x64x16x64x16) (constant (F := Ideal) S_ .f32 0x00000000#32)
        reducesTo_S32x1x64x16x64x16_S32x1x64x64_d3_5 h_S_)
      (broadcastInDim S32x1x64x64 ![] bcast_S_S32x1x64x64 (constant (F := Ideal) S_ .f32 0x43800000#32)))
    (broadcastInDim S32x1x64x64 ![] bcast_S_S32x1x64x64 (constant (F := Ideal) S_ .f32 0x3F000000#32))

variable (m : (ℓ : Loc nD τ sig) → Buf (Elt Ideal) ℓ) (ρ : Dev nD → PrngReg)

/-- The needle bit mask the plain program computes from the launch contents. -/
def needle (c : Dev nD) : IVec S32x1x64x64 1 := pooledMask (m ((c.tc : Thread nD τ).loc main_arg1))
/-- The prostate bit mask the plain program computes from the launch contents. -/
def prostate (c : Dev nD) : IVec S32x1x64x64 1 := pooledMask (m ((c.tc : Thread nD τ).loc main_arg2))

set_option maxHeartbeats 4000000 in
/-- THE PLAIN PROGRAM'S RUN: every weakly fair execution terminates with the six results at the shared function of its two
    pooled masks, the logits and the labels as launched, and the four arguments unchanged. -/
theorem run : θ_run defs (onTc (τ := τ) (main (F := Ideal))) ⟨m, fun _ => 0, ρ⟩ fun r => ∀ c : Dev nD,
      r.2.mem ((c.tc : Thread nD τ).loc main_v37) = Cert.Tail.corePredictions (F := Ideal) (needle m c) (prostate m c) (m ((c.tc : Thread nD τ).loc main_arg0))
      ∧ r.2.mem ((c.tc : Thread nD τ).loc main_v39) = Cert.Tail.coreLabels (F := Ideal) (m ((c.tc : Thread nD τ).loc main_arg3))
      ∧ r.2.mem ((c.tc : Thread nD τ).loc main_v43) = Cert.Tail.patchPredictions (F := Ideal) (needle m c) (prostate m c) (m ((c.tc : Thread nD τ).loc main_arg0))
      ∧ r.2.mem ((c.tc : Thread nD τ).loc main_v41) = Cert.Tail.patchLogits (F := Ideal) (needle m c) (prostate m c) (m ((c.tc : Thread nD τ).loc main_arg0))
      ∧ r.2.mem ((c.tc : Thread nD τ).loc main_v47) = Cert.Tail.patchLabels (F := Ideal) (needle m c) (prostate m c) (m ((c.tc : Thread nD τ).loc main_arg3))
      ∧ r.2.mem ((c.tc : Thread nD τ).loc main_v18) = Cert.Tail.chosen (needle m c) (prostate m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (by unfold Cert.ReferenceIdeal.ValueP.res_main_v37; rfl),
     (h c).2.1.trans rfl,
     (h c).2.2.1.trans rfl,
     (h c).2.2.2.1.trans rfl,
     (h c).2.2.2.2.1.trans rfl,
     (h c).2.2.2.2.2.1.trans rfl,
     (h c).2.2.2.2.2.2⟩)
    (Cert.ReferenceIdeal.ValueP.run (F := Ideal) m ρ)

end Cert.ReferenceIdeal.PoolValue

end
-- ==== Proof.lean ====
/-
  A Pallas kernel that average-pools two 1024 × 1024 masks over 16 × 16 boxes and thresholds them at one half, against the
  plain jnp program; everything downstream of the two pooled bit masks is the same host computation in both.

  The kernel sums a box's columns first and its rows second and multiplies by 2⁻⁸; the plain program sums the 256 entries at
  once and divides by 256.  Over the extended reals sums may be regrouped freely and dividing by 256 is multiplying by
  1/256, infinities included, so the two pooled values agree at every input and the finiteness precondition is never
  opened.  The kernel stores the thresholded bit as a float 0 / 1 and its program tests that float for being positive,
  which gives the bit back.  Hence the two programs' bit masks are equal, and so are the six results, each the same
  function of the masks, the logits and the labels.

  The three frames: the two kernel programs' are the generated frame certificates; the plain program's is its run with the
  results dropped.  The idealization rewrote nothing, so `preserves` is trivial.
-/
import proofs.«136621_j38439957299574_1_alg».proof.Defs
import proofs.«136621_j38439957299574_1_alg».proof.Proof.Gen.Kernel
import proofs.«136621_j38439957299574_1_alg».proof.Proof.Gen.Kernel.Skeleton
import proofs.«136621_j38439957299574_1_alg».proof.Proof.Gen.Kernel.Launch
import proofs.«136621_j38439957299574_1_alg».proof.Proof.Gen.Kernel.Points
import proofs.«136621_j38439957299574_1_alg».proof.Proof.Gen.Kernel.Frame
import proofs.«136621_j38439957299574_1_alg».proof.Proof.Gen.KernelIdeal
import proofs.«136621_j38439957299574_1_alg».proof.Proof.Gen.KernelIdeal.Skeleton
import proofs.«136621_j38439957299574_1_alg».proof.Proof.Gen.KernelIdeal.Launch
import proofs.«136621_j38439957299574_1_alg».proof.Proof.Gen.KernelIdeal.Points
import proofs.«136621_j38439957299574_1_alg».proof.Proof.Gen.KernelIdeal.Frame
import proofs.«136621_j38439957299574_1_alg».proof.Proof.Gen.ReferenceIdeal
import proofs.«136621_j38439957299574_1_alg».proof.Proof.Gen.Pre_finite_inputs
import proofs.«136621_j38439957299574_1_alg».proof.Proof.KernelRun
import proofs.«136621_j38439957299574_1_alg».proof.Proof.RefValue
import proofs.«136621_j38439957299574_1_alg».proof.Proof.PoolJoin
import Idealize.ShloMosaic.Adequacy
import Idealize.ShloMosaic.Init

noncomputable section

namespace Cert.Proof

open Idealize.ShloMosaic Idealize.SL.Sem

/-- The plain program's pooled mask of a mask is the kernel program's: the stored flags, above zero. -/
theorem pooledMask_eq (A : FVec Ideal Cert.ReferenceIdeal.S32x1x1024x1024 .f32) :
    Cert.ReferenceIdeal.PoolValue.pooledMask A = Cert.KernelIdeal.PoolValue.positive (Cert.Pool.pooledFlags A) :=
  Cert.Pool.pooled_bit A _ _ _ _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2) (Cert.ReferenceIdeal.PoolValue.run m ρ)

/-- From memories agreeing on the four arguments both programs end with the six results at the shared function of equal
    masks, equal logits and equal labels. -/
theorem algebraic : Cert.algebraic_KernelIdeal_ReferenceIdeal := by
  intro m ρ m' ρ' _ hagree
  refine ⟨_, _, _, _, _, _, Cert.KernelIdeal.PoolValue.run m ρ, ?_⟩
  refine (θ_run Cert.ReferenceIdeal.defs _ _).mono (fun r h c => ?_) (Cert.ReferenceIdeal.PoolValue.run m' ρ')
  obtain ⟨h0, h1, h2, h3, h4, h5, ha⟩ := h c
  obtain ⟨g0, g1, g2, g3⟩ := hagree c
  have en : Cert.ReferenceIdeal.PoolValue.needle m' c = Cert.KernelIdeal.PoolValue.needle m c := by
    unfold Cert.ReferenceIdeal.PoolValue.needle Cert.KernelIdeal.PoolValue.needle
    rw [g1, pooledMask_eq]
  have ep : Cert.ReferenceIdeal.PoolValue.prostate m' c = Cert.KernelIdeal.PoolValue.prostate m c := by
    unfold Cert.ReferenceIdeal.PoolValue.prostate Cert.KernelIdeal.PoolValue.prostate
    rw [g2, pooledMask_eq]
  refine ⟨h0.trans ?_, h1.trans ?_, h2.trans ?_, h3.trans ?_, h4.trans ?_, h5.trans ?_, ha⟩
  · rw [en, ep, g0]
  · rw [g3]
  · rw [en, ep, g0]
  · rw [en, ep, g0]
  · rw [en, ep, g3]
  · rw [en, ep]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
